-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 82
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x1, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x1, .f32⟩
  | .hbm, ⟨74, _⟩ => ⟨S1700000x1, .f32⟩
  | .hbm, ⟨75, _⟩ => ⟨S1700000x1, .f32⟩
  | .hbm, ⟨76, _⟩ => ⟨S_, .f32⟩
  | .hbm, ⟨77, _⟩ => ⟨S100000x1, .f32⟩
  | .hbm, ⟨78, _⟩ => ⟨S1700000x1, .i32⟩
  | .hbm, ⟨79, _⟩ => ⟨S100000x1, .f32⟩
  | .hbm, ⟨80, _⟩ => ⟨S1x1, .f32⟩
  | .hbm, ⟨81, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x1, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x1, .f32⟩
  | 5 => ⟨S1, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x1, .f32⟩
  | 70 => ⟨S_, .f32⟩
  | 71 => ⟨S1700000, .f32⟩
  | 72 => ⟨S_, .f32⟩
  | 73 => ⟨S100000, .f32⟩
  | 74 => ⟨S1700000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x1, .f32⟩
  | 112 => ⟨S1700000x1, .f32⟩
  | 113 => ⟨S1700000x1, .f32⟩
  | 114 => ⟨S_, .f32⟩
  | 115 => ⟨S100000x1, .f32⟩
  | 116 => ⟨S1700000x1, .i32⟩
  | 117 => ⟨S100000x1, .f32⟩
  | 118 => ⟨S1x1, .f32⟩
  | 119 => ⟨S100000x1, .f32⟩
  | 120 => ⟨S100000x1, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_19 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel's run with EVERY buffer's final contents kept.

  @main is eight segments: three stretches of host operations, the first dense stage's tiled kernel, a stretch of host
  operations (the first propagation), the second dense stage's kernel, a stretch (the second propagation), the last stage's
  kernel. The contents of the TensorCore's buffers at each boundary are a fold from the launch memory: a stretch applies its
  operations (`StableHlo.after`), a kernel region replaces its output array by what its grid points wrote back and keeps the
  rest. The launch theorem for such a list of segments ends with every unscoped buffer at the last boundary's contents;
  here that reading is kept for all of them (the frame claim keeps it for the six arguments only), so that the result
  buffer can be read off the fold.
-/
import proofs.«130790_j9929964388353_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the last
    boundary's contents `W8`. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the result buffer and at the six arguments: the result at the fold's contents, the arguments
    as launched. -/
theorem run_result : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_buffers m ρ)

end Cert.KernelIdeal.RunV

end
-- ==== Proof.GcnSpec.lean ====
/-
  The two-layer graph convolution both programs compute, written once as whole-array functions.

  The graph has N = 100000 nodes and E = 1600000 directed edges (row 0 of the edge list: sources, row 1: targets), and
  every node also carries a self loop: the source and target lists are the edge list's rows followed by 0 … N−1, 1700000
  entries each. With deg(v) the number of list entries whose target is v and d(v) = deg(v)^(−1/2) where deg(v) > 0
  (0 elsewhere), an edge e weighs w(e) = d(src e) · d(dst e), and the propagation of a node table h is
      (P h)(v, ·) = Σ_{e : dst e = v} h(src e, ·) · w(e).
  The network is
      out = σ( P( relu( P(x · W₁) + b₁ ) · W₂ ) + b₂ ),        σ(t) = 1 / (1 + e^(−t)).
  Each stage is spelt in the host operations the reference is printed in (a scatter-add for the sums over incoming
  edges, gathers for h(src e, ·) and d(·), jnp's wrap of a negative index before each gather), so that the reference's run
  IS this term, and the kernel's three tiled stages are compared with `project`, `hiddenLayer` and `squash` below.
-/
import proofs.«130790_j9929964388353_1_alg».proof.Proof.Gen.ReferenceIdeal

noncomputable section

namespace Cert.Gcn

open Cert.ReferenceIdeal Cert.ReferenceIdeal.Gen Idealize.ShloMosaic

variable {F : FTy → Type} [FloatOps F]

/-- The sources of all 1700000 list entries: row 0 of the edge list, then the self loops' 0 … N−1. -/
def srcIdx (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The targets of all list entries: row 1 of the edge list, then 0 … N−1. -/
def dstIdx (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- jnp's reading of an index before a gather: a negative one counts from the end (N is added). -/
def wrapIdx (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- deg(v): ones summed over the list entries whose target is v. -/
def degree (dst : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- d(v) = deg(v)^(−1/2) where deg(v) > 0, and 0 elsewhere. -/
def invSqrtDeg (dst : IVec S1700000 32) : FVec F S100000 .f32 :=
  select (cmpf .ogt (degree (F := F) dst) (broadcastInDim S100000 ![] bcast_S_S100000 (constant S_ .f32 0x00000000#32))) (Host.rsqrt (degree (F := F) dst)) (broadcastInDim S100000 ![] bcast_S_S100000 (id (constant S_ .f32 0x00000000#32)))

/-- w(e) = d(src e) · d(dst e). -/
def edgeWeight (src dst : IVec S1700000 32) : FVec F S1700000 .f32 :=
  mulf (Host.gather gather_S100000_S1700000x1_S1700000_n_0_n_n_0_1_1 (invSqrtDeg (F := F) dst) (broadcastInDim S1700000x1 ![0] bcast_S1700000_S1700000x1_0 (wrapIdx src)))
    (Host.gather gather_S100000_S1700000x1_S1700000_n_0_n_n_0_1_1 (invSqrtDeg (F := F) dst) (broadcastInDim S1700000x1 ![0] bcast_S1700000_S1700000x1_0 (wrapIdx dst)))

/-- The propagation of a 64-column node table along weighted entries: row v gets Σ_{e : dst e = v} h(src e, ·) · w(e). -/
def propagate64 (h : FVec F S100000x64 .f32) (src dst : IVec S1700000 32) (w : FVec F S1700000 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst)
    (mulf (Host.gather gather_S100000x64_S1700000x1_S1700000x64_1_0_n_n_0_1_164 h (broadcastInDim S1700000x1 ![0] bcast_S1700000_S1700000x1_0 (wrapIdx src)))
      (broadcastInDim S1700000x64 ![0, 1] bcast_S1700000x1_S1700000x64_0_1 (broadcastInDim S1700000x1 ![0] bcast_S1700000_S1700000x1_0 w)))

/-- The same propagation of a one-column node table. -/
def propagate1 (h : FVec F S100000x1 .f32) (src dst : IVec S1700000 32) (w : FVec F S1700000 .f32) : FVec F S100000x1 .f32 :=
  Host.scatterAdd scatter_S100000x1_S1700000x1_S1700000x1_1_0_0_1 (broadcastInDim S100000x1 ![] bcast_S_S100000x1 (constant S_ .f32 0x00000000#32)) (broadcastInDim S1700000x1 ![0] bcast_S1700000_S1700000x1_0 dst)
    (mulf (Host.gather gather_S100000x1_S1700000x1_S1700000x1_1_0_n_n_0_1_11 h (broadcastInDim S1700000x1 ![0] bcast_S1700000_S1700000x1_0 (wrapIdx src)))
      (broadcastInDim S1700000x1 ![0] bcast_S1700000_S1700000x1_0 w))

/-- The first dense stage: x · W₁. -/
def project (x : FVec F S100000x128 .f32) (w1 : FVec F S128x64 .f32) : FVec F S100000x64 .f32 :=
  Host.dotGeneral dot_S100000x128_S128x64_S100000x64_1_0_0_1_n_n none x w1

/-- The second dense stage on a propagated table `a` and the bias laid out as one row: relu(a + b₁) · W₂. -/
def hiddenLayer (a : FVec F S100000x64 .f32) (brow : FVec F S1x64 .f32) (w2 : FVec F S64x1 .f32) : FVec F S100000x1 .f32 :=
  Host.dotGeneral dot_S100000x64_S64x1_S100000x1_1_0_0_1_n_n none
    (maximumf (addf a (broadcastInDim S100000x64 ![0, 1] bcast_S1x64_S100000x64_0_1 brow)) (broadcastInDim S100000x64 ![] bcast_S_S100000x64 (constant S_ .f32 0x00000000#32))) w2

/-- The last stage on a propagated column `a` and the bias as a one-entry matrix: σ(a + b₂), σ spelt 1 / (1 + e^(−t)). -/
def squash (a : FVec F S100000x1 .f32) (bcell : FVec F S1x1 .f32) : FVec F S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf a (broadcastInDim S100000x1 ![0, 1] bcast_S1x1_S100000x1_0_1 bcell)))))

/-- The network with both biases already laid out as the dense stages read them (b₁ as a row, b₂ as a one-entry matrix). -/
def network (x : FVec F S100000x128 .f32) (ei : IVec S2x1600000 32) (w1 : FVec F S128x64 .f32) (brow : FVec F S1x64 .f32)
    (w2 : FVec F S64x1 .f32) (bcell : FVec F S1x1 .f32) : FVec F S100000x1 .f32 :=
  squash (propagate1 (hiddenLayer (propagate64 (project x w1) (srcIdx ei) (dstIdx ei) (edgeWeight (F := F) (srcIdx ei) (dstIdx ei))) brow w2)
    (srcIdx ei) (dstIdx ei) (edgeWeight (F := F) (srcIdx ei) (dstIdx ei))) bcell

/-- The network of the six arguments: the reference lays b₁ and b₂ out by broadcasts in dimensions. -/
def forward (x : FVec F S100000x128 .f32) (ei : IVec S2x1600000 32) (w1 : FVec F S128x64 .f32) (b1 : FVec F S64 .f32)
    (w2 : FVec F S64x1 .f32) (b2 : FVec F S1 .f32) : FVec F S100000x1 .f32 :=
  network x ei w1 (broadcastInDim S1x64 ![1] bcast_S64_S1x64_1 b1) w2 (broadcastInDim S1x1 ![1] bcast_S1_S1x1_1 b2)

end Cert.Gcn

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.TileForms.lean ====
/-
  The three kernel bodies, each on one tile of 10000 rows, against the specification's dense stages read at one entry.

  A tile is the rows `row r` (r < 10000) of a 100000-row table; the small operands (a weight matrix, a bias row, a bias
  cell) are loaded whole. Entry (r, o) of what a body stores is then entry (row r, o) of the whole-array stage:
    * first stage: a matrix product with a zero accumulator, the operands rounded to bf16 first — at the ideal values the
      rounding is the identity and the product is Σ_k x(row r, k) · W₁(k, o), the reference's product at that row;
    * second stage: the bias row copied down the tile, added, the maximum with 0 taken, then the product with W₂;
    * last stage: the bias cell copied down, added, and the logistic function — which at the ideal values IS
      1 / (1 + e^(−t)) (`Ideal.logistic`'s definition), the expansion the reference is printed with.
  No entry needs to be finite for any of this: each side is the same expression of the same entries.
-/
import proofs.«130790_j9929964388353_1_alg».proof.Proof.Gen.KernelIdeal.Skeleton
import proofs.«130790_j9929964388353_1_alg».proof.Proof.GcnSpec
import proofs.«130790_j9929964388353_1_alg».proof.Proof.LibPlainProduct
import proofs.«130790_j9929964388353_1_alg».proof.Proof.LibHostRowForms
import proofs.«130790_j9929964388353_1_alg».proof.Proof.LibRowLayout
import Idealize.ShloMosaic.Lib.IdealHost
import Idealize.ShloMosaic.Lib.Pipeline.Value
import Idealize.ShloMosaic.Lib.ValueIdx

noncomputable section

open scoped BigOperators

namespace Cert.KernelIdeal.Tile

open Cert.KernelIdeal Cert.KernelIdeal.Gen Idealize.ShloMosaic Idealize.ShloMosaic.ValueIdx

/-- THE FIRST DENSE STAGE on a tile: entry (r, o) of the stored block is entry (row r, o) of x · W₁. -/
theorem projectTile_apply (X : FVec Ideal S100000x128 .f32) (W1 : FVec Ideal S128x64 .f32)
    (x0 : Vec Ideal S10000x128 .f32) (x1 : Vec Ideal S128x64 .f32) (row : Fin 10000 → Fin 100000)
    (h0 : ∀ (r : Fin 10000) (k : Fin 128), x0 (ix2 r k) = X (ix2 (row r) k))
    (h1 : ∀ (k : Fin 128) (o : Fin 64), x1 (ix2 k o) = W1 (ix2 k o))
    (r : Fin 10000) (o : Fin 64) :
    k0_pay1 (F := Ideal) x0 x1 (ix2 r o) = Cert.Gcn.project (F := Ideal) X W1 (ix2 (row r) o) := by
  unfold k0_pay1 Cert.Gcn.project
  rw [PlainProduct.matmul_of_plain dot_S10000x128_S128x64_S10000x64_1_0_0_1_n_n rfl,
    PlainProduct.dotGeneral_of_plain Cert.ReferenceIdeal.dot_S100000x128_S128x64_S100000x64_1_0_0_1_n_n rfl]
  refine Finset.sum_congr rfl fun k _ => ?_
  show x0 (ix2 r k) * x1 (ix2 k o) = _
  rw [h0, h1]

/-- THE SECOND DENSE STAGE on a tile: entry (r, u) of the stored block is entry (row r, u) of relu(a + b₁) · W₂. -/
theorem hiddenTile_apply (A : FVec Ideal S100000x64 .f32) (brow : FVec Ideal S1x64 .f32) (W2 : FVec Ideal S64x1 .f32)
    (x0 : Vec Ideal S10000x64 .f32) (x1 : Vec Ideal S1x64 .f32) (x2 : Vec Ideal S64x1 .f32) (row : Fin 10000 → Fin 100000)
    (h0 : ∀ (r : Fin 10000) (k : Fin 64), x0 (ix2 r k) = A (ix2 (row r) k))
    (h1 : ∀ (z : Fin 1) (k : Fin 64), x1 (ix2 z k) = brow (ix2 z k))
    (h2 : ∀ (k : Fin 64) (u : Fin 1), x2 (ix2 k u) = W2 (ix2 k u))
    (r : Fin 10000) (u : Fin 1) :
    k1_pay1 (F := Ideal) x0 x1 x2 (ix2 r u) = Cert.Gcn.hiddenLayer (F := Ideal) A brow W2 (ix2 (row r) u) := by
  unfold k1_pay1 Cert.Gcn.hiddenLayer
  dsimp only
  rw [PlainProduct.matmul_of_plain dot_S10000x64_S64x1_S10000x1_1_0_0_1_n_n rfl,
    PlainProduct.dotGeneral_of_plain Cert.ReferenceIdeal.dot_S100000x64_S64x1_S100000x1_1_0_0_1_n_n rfl]
  refine Finset.sum_congr rfl fun k _ => ?_
  rw [shapeCast_self, shapeCast_self]
  show max (x0 (ix2 r k) + broadcastTo S10000x64 x1 _ (ix2 r k)) (Ideal.ofBits .f32 0x00000000#32) * x2 (ix2 k u)
    = max (A (ix2 (row r) k) + broadcastInDim Cert.ReferenceIdeal.S100000x64 ![0, 1] _ brow (ix2 (row r) k))
        (broadcastInDim Cert.ReferenceIdeal.S100000x64 ![] _ (constant (F := Ideal) Cert.ReferenceIdeal.S_ .f32 0x00000000#32) (ix2 (row r) k)) * W2 (ix2 k u)
  rw [RowLayout.rowBroadcast_apply, Cert.HostRowForms.bcast_1b_ab_apply _ _ rfl, Cert.HostRowForms.bcast_scalar_apply, h0, h1, h2]

/-- THE LAST STAGE on a tile: entry (r, u) of the stored block is entry (row r, u) of σ(a + b₂). -/
theorem squashTile_apply (A : FVec Ideal S100000x1 .f32) (bcell : FVec Ideal S1x1 .f32)
    (x0 : Vec Ideal S10000x1 .f32) (x1 : Vec Ideal S1x1 .f32) (row : Fin 10000 → Fin 100000)
    (h0 : ∀ (r : Fin 10000) (u : Fin 1), x0 (ix2 r u) = A (ix2 (row r) u))
    (h1 : ∀ (z : Fin 1) (u : Fin 1), x1 (ix2 z u) = bcell (ix2 z u))
    (r : Fin 10000) (u : Fin 1) :
    k2_pay1 (F := Ideal) x0 x1 (ix2 r u) = Cert.Gcn.squash (F := Ideal) A bcell (ix2 (row r) u) := by
  unfold k2_pay1 Cert.Gcn.squash
  dsimp only
  rw [shapeCast_self, shapeCast_self]
  show Ideal.logistic (x0 (ix2 r u) + broadcastTo S10000x1 x1 _ (ix2 r u))
    = Ideal.div (Ideal.ofBits .f32 0x3F800000#32) (Ideal.ofBits .f32 0x3F800000#32
        + Ideal.exp (-(A (ix2 (row r) u) + broadcastInDim Cert.ReferenceIdeal.S100000x1 ![0, 1] _ bcell (ix2 (row r) u))))
  rw [RowLayout.rowBroadcast_apply, Cert.HostRowForms.bcast_1b_ab_apply _ _ rfl, Ideal.ofBits_one_f32, h0, h1]
  rfl

end Cert.KernelIdeal.Tile

end
-- ==== Proof.StageProject.lean ====
/-
  The first kernel region: x · W₁, ten tiles of 10000 rows.

  Grid point t loads rows 10000·t … 10000·t+9999 of x and all of W₁, and writes back the same rows of the result. Each
  written tile is that tile of the reference's product x · W₁ (the product of a block of rows is that block of the product's
  rows), and the ten tiles cover the 100000 rows: after the region the result array IS x · W₁ of the arrays at its entry.
-/
import proofs.«130790_j9929964388353_1_alg».proof.Proof.Gen.KernelIdeal.Frame
import proofs.«130790_j9929964388353_1_alg».proof.Proof.TileForms
import Idealize.ShloMosaic.Lib.Pipeline.Value

set_option maxRecDepth 16384

noncomputable section

namespace Cert.KernelIdeal.Stage0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the ten grid points: point t takes tile t of the row-tiled operand and of the result,
    and the one block of every small operand. -/
theorem tiles : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is tile t (rows 10000·t … 10000·t + 9999) of the whole-array stage applied to the arrays as
    the region finds them. -/
theorem flushed_eq (c : Dev nD) (t : Fin cfg0.N) :
    (dat0 V c).flushed 2 t = ((cfg0.win 2).blk t).view.read (Elt Ideal) (Cert.Gcn.project (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x64) origin2]
  obtain ⟨e0, e1, e2, e3, e4, e5⟩ := tiles t
  have ht : t.val < 10 := lt_of_lt_of_eq t.isLt N_0
  funext j
  obtain ⟨r, o, rfl⟩ : ∃ (r : Fin 10000) (o : Fin 64), j = ix2 r o := ⟨j 0, j 1, eq_ix2 j⟩
  show k0_pay1 (iblk0 V c 0 t) (iblk0 V c 1 t) (ix2 r o) = (Cert.Gcn.project (F := Ideal) (V c main_arg0) (V c main_arg2)) (((cfg0.win 2).blk t).view.emb (ix2 r o))
  refine (Tile.projectTile_apply (V c main_arg0) (V c main_arg2) (iblk0 V c 0 t) (iblk0 V c 1 t)
      (fun r => ⟨t.val * 10000 + r.val, by have := r.isLt; omega⟩) ?_ ?_ r o).trans ?_
  · intro r q
    show V c main_arg0 (((cfg0.win 0).blk t).view.emb (ix2 r q)) = V c main_arg0 _
    refine congrArg (V c main_arg0) (funext fun a => Fin.ext ?_)
    match a with
    | ⟨0, _⟩ => show win0_0.index t (0 : Fin 2) * 10000 + 1 * r.val = t.val * 10000 + r.val; omega
    | ⟨1, _⟩ => show win0_0.index t (1 : Fin 2) * 128 + 1 * q.val = q.val; omega
  · intro p q
    show V c main_arg2 (((cfg0.win 1).blk t).view.emb (ix2 p q)) = V c main_arg2 _
    refine congrArg (V c main_arg2) (funext fun a => Fin.ext ?_)
    match a with
    | ⟨0, _⟩ => show win0_1.index t (0 : Fin 2) * 128 + 1 * p.val = p.val; omega
    | ⟨1, _⟩ => show win0_1.index t (1 : Fin 2) * 64 + 1 * q.val = q.val; omega
  · refine congrArg (Cert.Gcn.project (F := Ideal) (V c main_arg0) (V c main_arg2)) (funext fun a => Fin.ext ?_)
    match a with
    | ⟨0, _⟩ => show t.val * 10000 + r.val = win0_2.index t (0 : Fin 2) * 10000 + 1 * r.val; omega
    | ⟨1, _⟩ => show o.val = win0_2.index t (1 : Fin 2) * 64 + 1 * o.val; omega

/-- An index of the result array lies in point t's tile iff each coordinate lies in the tile's range on its axis. -/
theorem mem_tile (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- THE RESULT ARRAY after the region: the ten tiles cover all 100000 rows (row v lies in tile v / 10000), and each was
    written with the stage's values, so the array is the whole-array stage of the arrays as the region finds them. -/
theorem array_eq (c : Dev nD) : (dat0 V c).arrAt 2 cfg0.N = Cert.Gcn.project (F := Ideal) (V c main_arg0) (V c main_arg2) := by
  refine (dat0 V c).arrAt_eq_of_cover 2 _ (fun t _ => flushed_eq V c t) fun i => ?_
  have hi0 : (i 0).val < 100000 := (i 0).isLt
  have hi1 : (i 1).val < 64 := (i 1).isLt
  have hlt : (i 0).val / 10000 < cfg0.N := lt_of_lt_of_eq (by omega) N_0.symm
  obtain ⟨-, -, -, -, e4, e5⟩ := tiles ⟨(i 0).val / 10000, hlt⟩
  refine ⟨⟨(i 0).val / 10000, hlt⟩, flush0_2 _, ?_⟩
  rw [mem_tile]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    omega

end Cert.KernelIdeal.Stage0

end
-- ==== Proof.StageHidden.lean ====
/-
  The second kernel region: relu(a + b₁) · W₂, ten tiles of 10000 rows.

  Grid point t loads rows 10000·t … of the propagated table a, the bias row and all of W₂, and writes back the same rows of
  the one-column result. Bias, maximum with 0 and product act row by row, so each written tile is that tile of the
  whole-array stage, and the ten tiles cover the 100000 rows.
-/
import proofs.«130790_j9929964388353_1_alg».proof.Proof.Gen.KernelIdeal.Frame
import proofs.«130790_j9929964388353_1_alg».proof.Proof.TileForms
import Idealize.ShloMosaic.Lib.Pipeline.Value

set_option maxRecDepth 16384

noncomputable section

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the ten grid points: point t takes tile t of the row-tiled operand and of the result,
    and the one block of every small operand. -/
theorem tiles : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- WHAT POINT t WRITES BACK is tile t (rows 10000·t … 10000·t + 9999) of the whole-array stage applied to the arrays as
    the region finds them. -/
theorem flushed_eq (c : Dev nD) (t : Fin cfg1.N) :
    (dat1 V c).flushed 3 t = ((cfg1.win 3).blk t).view.read (Elt Ideal) (Cert.Gcn.hiddenLayer (F := Ideal) (V c main_v43) (V c main_v44) (V c main_arg4)) := by
  show (cfg1.win 3).cut (grid1.coords t) ((dat1 V c).after 3 t) = _
  rw [after1_3]
  unfold out1_3
  rw [View.canon_unit_zero origin2]
  simp only [View.ld_unit_zero (S := S10000x64) origin2, View.ld_unit_zero (S := S1x64) origin2, View.ld_unit_zero (S := S64x1) origin2]
  obtain ⟨e0, e1, e2, e3, e4, e5, e6, e7⟩ := tiles t
  have ht : t.val < 10 := lt_of_lt_of_eq t.isLt N_1
  funext j
  obtain ⟨r, o, rfl⟩ : ∃ (r : Fin 10000) (o : Fin 1), j = ix2 r o := ⟨j 0, j 1, eq_ix2 j⟩
  show k1_pay1 (iblk1 V c 0 t) (iblk1 V c 1 t) (iblk1 V c 2 t) (ix2 r o) = (Cert.Gcn.hiddenLayer (F := Ideal) (V c main_v43) (V c main_v44) (V c main_arg4)) (((cfg1.win 3).blk t).view.emb (ix2 r o))
  refine (Tile.hiddenTile_apply (V c main_v43) (V c main_v44) (V c main_arg4) (iblk1 V c 0 t) (iblk1 V c 1 t) (iblk1 V c 2 t)
      (fun r => ⟨t.val * 10000 + r.val, by have := r.isLt; omega⟩) ?_ ?_ ?_ r o).trans ?_
  · intro r q
    show V c main_v43 (((cfg1.win 0).blk t).view.emb (ix2 r q)) = V c main_v43 _
    refine congrArg (V c main_v43) (funext fun a => Fin.ext ?_)
    match a with
    | ⟨0, _⟩ => show win1_0.index t (0 : Fin 2) * 10000 + 1 * r.val = t.val * 10000 + r.val; omega
    | ⟨1, _⟩ => show win1_0.index t (1 : Fin 2) * 64 + 1 * q.val = q.val; omega
  · intro p q
    show V c main_v44 (((cfg1.win 1).blk t).view.emb (ix2 p q)) = V c main_v44 _
    refine congrArg (V c main_v44) (funext fun a => Fin.ext ?_)
    match a with
    | ⟨0, _⟩ => show win1_1.index t (0 : Fin 2) * 1 + 1 * p.val = p.val; omega
    | ⟨1, _⟩ => show win1_1.index t (1 : Fin 2) * 64 + 1 * q.val = q.val; omega
  · intro p q
    show V c main_arg4 (((cfg1.win 2).blk t).view.emb (ix2 p q)) = V c main_arg4 _
    refine congrArg (V c main_arg4) (funext fun a => Fin.ext ?_)
    match a with
    | ⟨0, _⟩ => show win1_2.index t (0 : Fin 2) * 64 + 1 * p.val = p.val; omega
    | ⟨1, _⟩ => show win1_2.index t (1 : Fin 2) * 1 + 1 * q.val = q.val; omega
  · refine congrArg (Cert.Gcn.hiddenLayer (F := Ideal) (V c main_v43) (V c main_v44) (V c main_arg4)) (funext fun a => Fin.ext ?_)
    match a with
    | ⟨0, _⟩ => show t.val * 10000 + r.val = win1_3.index t (0 : Fin 2) * 10000 + 1 * r.val; omega
    | ⟨1, _⟩ => show o.val = win1_3.index t (1 : Fin 2) * 1 + 1 * o.val; omega

/-- An index of the result array lies in point t's tile iff each coordinate lies in the tile's range on its axis. -/
theorem mem_tile (t : Fin cfg1.N) (i : S100000x1.Idx) :
    i ∈ ((cfg1.win 3).blk t).view.set ↔ ∀ a : Fin 2, win1_3.index t a * S10000x1.size a ≤ (i a).val ∧ (i a).val < win1_3.index t a * S10000x1.size a + S10000x1.size a := by
  show i ∈ ((View.whole main_v45).slice (win1_3.rect t)).set ↔ _
  rw [View.set_slice_whole, Rect.mem_set_unit]
  exact Iff.rfl

/-- THE RESULT ARRAY after the region: the ten tiles cover all 100000 rows (row v lies in tile v / 10000), and each was
    written with the stage's values, so the array is the whole-array stage of the arrays as the region finds them. -/
theorem array_eq (c : Dev nD) : (dat1 V c).arrAt 3 cfg1.N = Cert.Gcn.hiddenLayer (F := Ideal) (V c main_v43) (V c main_v44) (V c main_arg4) := by
  refine (dat1 V c).arrAt_eq_of_cover 3 _ (fun t _ => flushed_eq V c t) fun i => ?_
  have hi0 : (i 0).val < 100000 := (i 0).isLt
  have hi1 : (i 1).val < 1 := (i 1).isLt
  have hlt : (i 0).val / 10000 < cfg1.N := lt_of_lt_of_eq (by omega) N_1.symm
  obtain ⟨-, -, -, -, -, -, e6, e7⟩ := tiles ⟨(i 0).val / 10000, hlt⟩
  refine ⟨⟨(i 0).val / 10000, hlt⟩, flush1_3 _, ?_⟩
  rw [mem_tile]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, hlt⟩ (1 : Fin 2) * 1 ≤ (i 1).val ∧ (i 1).val < win1_3.index ⟨(i 0).val / 10000, hlt⟩ (1 : Fin 2) * 1 + 1
    omega

end Cert.KernelIdeal.Stage1

end
-- ==== Proof.StageSquash.lean ====
/-
  The third kernel region: σ(a + b₂), ten tiles of 10000 rows.

  Grid point t loads rows 10000·t … of the propagated column a and the bias cell, and writes back the same rows of the
  result. The stage is entry by entry, so each written tile is that tile of the whole-array stage, and the ten tiles cover
  the 100000 rows.
-/
import proofs.«130790_j9929964388353_1_alg».proof.Proof.Gen.KernelIdeal.Frame
import proofs.«130790_j9929964388353_1_alg».proof.Proof.TileForms
import Idealize.ShloMosaic.Lib.Pipeline.Value

set_option maxRecDepth 16384

noncomputable section

namespace Cert.KernelIdeal.Stage2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the ten grid points: point t takes tile t of the row-tiled operand and of the result,
    and the one block of every small operand. -/
theorem tiles : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT POINT t WRITES BACK is tile t (rows 10000·t … 10000·t + 9999) of the whole-array stage applied to the arrays as
    the region finds them. -/
theorem flushed_eq (c : Dev nD) (t : Fin cfg2.N) :
    (dat2 V c).flushed 2 t = ((cfg2.win 2).blk t).view.read (Elt Ideal) (Cert.Gcn.squash (F := Ideal) (V c main_v57) (V c main_v58)) := by
  show (cfg2.win 2).cut (grid2.coords t) ((dat2 V c).after 2 t) = _
  rw [after2_2]
  unfold out2_2
  rw [View.canon_unit_zero origin2]
  simp only [View.ld_unit_zero (S := S10000x1) origin2, View.ld_unit_zero (S := S1x1) origin2]
  obtain ⟨e0, e1, e2, e3, e4, e5⟩ := tiles t
  have ht : t.val < 10 := lt_of_lt_of_eq t.isLt N_2
  funext j
  obtain ⟨r, o, rfl⟩ : ∃ (r : Fin 10000) (o : Fin 1), j = ix2 r o := ⟨j 0, j 1, eq_ix2 j⟩
  show k2_pay1 (iblk2 V c 0 t) (iblk2 V c 1 t) (ix2 r o) = (Cert.Gcn.squash (F := Ideal) (V c main_v57) (V c main_v58)) (((cfg2.win 2).blk t).view.emb (ix2 r o))
  refine (Tile.squashTile_apply (V c main_v57) (V c main_v58) (iblk2 V c 0 t) (iblk2 V c 1 t)
      (fun r => ⟨t.val * 10000 + r.val, by have := r.isLt; omega⟩) ?_ ?_ r o).trans ?_
  · intro r q
    show V c main_v57 (((cfg2.win 0).blk t).view.emb (ix2 r q)) = V c main_v57 _
    refine congrArg (V c main_v57) (funext fun a => Fin.ext ?_)
    match a with
    | ⟨0, _⟩ => show win2_0.index t (0 : Fin 2) * 10000 + 1 * r.val = t.val * 10000 + r.val; omega
    | ⟨1, _⟩ => show win2_0.index t (1 : Fin 2) * 1 + 1 * q.val = q.val; omega
  · intro p q
    show V c main_v58 (((cfg2.win 1).blk t).view.emb (ix2 p q)) = V c main_v58 _
    refine congrArg (V c main_v58) (funext fun a => Fin.ext ?_)
    match a with
    | ⟨0, _⟩ => show win2_1.index t (0 : Fin 2) * 1 + 1 * p.val = p.val; omega
    | ⟨1, _⟩ => show win2_1.index t (1 : Fin 2) * 1 + 1 * q.val = q.val; omega
  · refine congrArg (Cert.Gcn.squash (F := Ideal) (V c main_v57) (V c main_v58)) (funext fun a => Fin.ext ?_)
    match a with
    | ⟨0, _⟩ => show t.val * 10000 + r.val = win2_2.index t (0 : Fin 2) * 10000 + 1 * r.val; omega
    | ⟨1, _⟩ => show o.val = win2_2.index t (1 : Fin 2) * 1 + 1 * o.val; omega

/-- An index of the result array lies in point t's tile iff each coordinate lies in the tile's range on its axis. -/
theorem mem_tile (t : Fin cfg2.N) (i : S100000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v59).slice (win2_2.rect t)).set ↔ _
  rw [View.set_slice_whole, Rect.mem_set_unit]
  exact Iff.rfl

/-- THE RESULT ARRAY after the region: the ten tiles cover all 100000 rows (row v lies in tile v / 10000), and each was
    written with the stage's values, so the array is the whole-array stage of the arrays as the region finds them. -/
theorem array_eq (c : Dev nD) : (dat2 V c).arrAt 2 cfg2.N = Cert.Gcn.squash (F := Ideal) (V c main_v57) (V c main_v58) := by
  refine (dat2 V c).arrAt_eq_of_cover 2 _ (fun t _ => flushed_eq V c t) fun i => ?_
  have hi0 : (i 0).val < 100000 := (i 0).isLt
  have hi1 : (i 1).val < 1 := (i 1).isLt
  have hlt : (i 0).val / 10000 < cfg2.N := lt_of_lt_of_eq (by omega) N_2.symm
  obtain ⟨-, -, -, -, e4, e5⟩ := tiles ⟨(i 0).val / 10000, hlt⟩
  refine ⟨⟨(i 0).val / 10000, hlt⟩, flush2_2 _, ?_⟩
  rw [mem_tile]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 1 ≤ (i 1).val ∧ (i 1).val < win2_2.index ⟨(i 0).val / 10000, hlt⟩ (1 : Fin 2) * 1 + 1
    omega

end Cert.KernelIdeal.Stage2

end
-- ==== Proof.KernelValue.lean ====
/-
  What the idealized kernel's run leaves in its result buffer: the network of `GcnSpec`.

  The buffers' contents at the boundaries of @main's eight segments are a fold from the launch memory (the frame module's
  `W0 … W8`). Read backwards from the result:
    * the last region's output array is σ(a + b₂) of the second propagation `a` and the bias cell, as that region finds them;
    * the stretch before it computes the second propagation from the second region's output, the source and target lists and
      the edge weights, and lays b₂ out as a one-entry matrix;
    * the second region's output array is relu(a + b₁) · W₂ of the first propagation, the bias row and W₂;
    * the stretch before it computes the first propagation from the first region's output and lays b₁ out as a row;
    * the first region's output array is x · W₁;
    * the three opening stretches compute the source and target lists, the degrees and the edge weights from the edge list;
  and a buffer that a segment does not write keeps its contents across it. Each host stretch is, operation by operation,
  the text of the corresponding piece of the specification, so the whole fold is `Gcn.network` of the arguments — with the
  biases laid out by reshapes where the reference lays them out by broadcasts in dimensions, which is the same layout.
-/
import proofs.«130790_j9929964388353_1_alg».proof.Proof.KernelRun
import proofs.«130790_j9929964388353_1_alg».proof.Proof.StageProject
import proofs.«130790_j9929964388353_1_alg».proof.Proof.StageHidden
import proofs.«130790_j9929964388353_1_alg».proof.Proof.StageSquash
import proofs.«130790_j9929964388353_1_alg».proof.Proof.GcnSpec
import proofs.«130790_j9929964388353_1_alg».proof.Proof.LibRowLayout

set_option maxRecDepth 16384

noncomputable section

namespace Cert.KernelIdeal.RunV

open Cert.KernelIdeal Cert.KernelIdeal.Gen Idealize.ShloMosaic Idealize.ShloMosaic.TcCoe Idealize.SL.Sem Idealize.ShloMosaic.ValueIdx
open Idealize.ShloMosaic.StableHlo (after)

/-! ## The host stretches, from any contents of the buffers -/

section Stretches

variable {F : FTy → Type} [FloatOps F] (W : Valuation τ sig (Elt F))

set_option maxHeartbeats 4000000 in
/-- The stretch between the first and the second region: the first propagation. -/
theorem stretch1_propagation : after (hostOps1 (F := F)) W (Proc.devRef .tc main_v43)
    = Cert.Gcn.propagate64 (F := F) (W (Proc.devRef .tc main_v30)) (W (Proc.devRef .tc main_v3)) (W (Proc.devRef .tc main_v6)) (W (Proc.devRef .tc main_v29)) := by
  after_results
  rfl

/-- … and b₁ reshaped to a row. -/
theorem stretch1_bias : after (hostOps1 (F := F)) W (Proc.devRef .tc main_v44)
    = shapeCast S1x64 (W (Proc.devRef .tc main_arg3)) shapeCasts_S64_S1x64 := by
  after_results
  rfl

theorem stretch1_arg4 : after (hostOps1 (F := F)) W (Proc.devRef .tc main_arg4) = W (Proc.devRef .tc main_arg4) := by after_results
theorem stretch1_arg5 : after (hostOps1 (F := F)) W (Proc.devRef .tc main_arg5) = W (Proc.devRef .tc main_arg5) := by after_results
theorem stretch1_src : after (hostOps1 (F := F)) W (Proc.devRef .tc main_v3) = W (Proc.devRef .tc main_v3) := by after_results
theorem stretch1_dst : after (hostOps1 (F := F)) W (Proc.devRef .tc main_v6) = W (Proc.devRef .tc main_v6) := by after_results
theorem stretch1_weight : after (hostOps1 (F := F)) W (Proc.devRef .tc main_v29) = W (Proc.devRef .tc main_v29) := by after_results

set_option maxHeartbeats 4000000 in
/-- The stretch between the second and the third region: the second propagation. -/
theorem stretch2_propagation : after (hostOps2 (F := F)) W (Proc.devRef .tc main_v57)
    = Cert.Gcn.propagate1 (F := F) (W (Proc.devRef .tc main_v45)) (W (Proc.devRef .tc main_v3)) (W (Proc.devRef .tc main_v6)) (W (Proc.devRef .tc main_v29)) := by
  after_results
  rfl

/-- … and b₂ reshaped to a one-entry matrix. -/
theorem stretch2_bias : after (hostOps2 (F := F)) W (Proc.devRef .tc main_v58)
    = shapeCast S1x1 (W (Proc.devRef .tc main_arg5)) shapeCasts_S1_S1x1 := by
  after_results
  rfl

/-- The three opening stretches, one after the other. -/
abbrev opening : Valuation τ sig (Elt F) := after (hostOps0_2 (F := F)) (after (hostOps0_1 (F := F)) (after (hostOps0 (F := F)) W))

theorem opening_src : opening W (Proc.devRef .tc main_v3) = Cert.Gcn.srcIdx (W (Proc.devRef .tc main_arg1)) := by
  dsimp only [opening, hostOps0, hostOps0_1, hostOps0_2]
  after_results
  rfl

theorem opening_dst : opening W (Proc.devRef .tc main_v6) = Cert.Gcn.dstIdx (W (Proc.devRef .tc main_arg1)) := by
  dsimp only [opening, hostOps0, hostOps0_1, hostOps0_2]
  after_results
  rfl

set_option maxHeartbeats 4000000 in
theorem opening_weight : opening W (Proc.devRef .tc main_v29)
    = Cert.Gcn.edgeWeight (F := F) (Cert.Gcn.srcIdx (W (Proc.devRef .tc main_arg1))) (Cert.Gcn.dstIdx (W (Proc.devRef .tc main_arg1))) := by
  dsimp only [opening, hostOps0, hostOps0_1, hostOps0_2]
  after_results_simp
  rfl

theorem opening_arg0 : opening W (Proc.devRef .tc main_arg0) = W (Proc.devRef .tc main_arg0) := by
  dsimp only [opening, hostOps0, hostOps0_1, hostOps0_2]; after_results_simp
theorem opening_arg2 : opening W (Proc.devRef .tc main_arg2) = W (Proc.devRef .tc main_arg2) := by
  dsimp only [opening, hostOps0, hostOps0_1, hostOps0_2]; after_results_simp
theorem opening_arg3 : opening W (Proc.devRef .tc main_arg3) = W (Proc.devRef .tc main_arg3) := by
  dsimp only [opening, hostOps0, hostOps0_1, hostOps0_2]; after_results_simp
theorem opening_arg4 : opening W (Proc.devRef .tc main_arg4) = W (Proc.devRef .tc main_arg4) := by
  dsimp only [opening, hostOps0, hostOps0_1, hostOps0_2]; after_results_simp
theorem opening_arg5 : opening W (Proc.devRef .tc main_arg5) = W (Proc.devRef .tc main_arg5) := by
  dsimp only [opening, hostOps0, hostOps0_1, hostOps0_2]; after_results_simp

end Stretches

/-! ## The fold, read at the result buffer -/

variable (m : (ℓ : Loc nD τ sig) → Buf (Elt Ideal) ℓ) (ρ : Dev nD → PrngReg)

/-- The edge list, the source and target lists and the edge weights of the launch memory. -/
abbrev edges (c : Dev nD) : IVec S2x1600000 32 := m ((c.tc : Thread nD τ).loc main_arg1)
abbrev srcs (c : Dev nD) : IVec S1700000 32 := Cert.Gcn.srcIdx (edges m c)
abbrev dsts (c : Dev nD) : IVec S1700000 32 := Cert.Gcn.dstIdx (edges m c)
abbrev weights (c : Dev nD) : FVec Ideal S1700000 .f32 := Cert.Gcn.edgeWeight (F := Ideal) (srcs m c) (dsts m c)

/-- After the first region: its output array is x · W₁. -/
theorem first_stage (c : Dev nD) : W4 m ρ c (Proc.devRef .tc main_v30)
    = Cert.Gcn.project (F := Ideal) (m ((c.tc : Thread nD τ).loc main_arg0)) (m ((c.tc : Thread nD τ).loc main_arg2)) := by
  refine (W4_arr m ρ c 2).trans ((Stage0.array_eq (V3 m ρ) c).trans ?_)
  show Cert.Gcn.project (F := Ideal) (opening (W0 m ρ c) (Proc.devRef .tc main_arg0)) (opening (W0 m ρ c) (Proc.devRef .tc main_arg2)) = _
  rw [opening_arg0, opening_arg2]

/-- A buffer the first region does not stage keeps, across it, what the opening stretches left. -/
theorem across_first (c : Dev nD) (b : Ref sig .tc) (hb : ∀ w, Pipeline.arrRef spec0 w ≠ b) :
    W4 m ρ c (Proc.devRef .tc b) = opening (W0 m ρ c) (Proc.devRef .tc b) := W4_of_ne m ρ c b hb

/-- Before the second region: the first propagation of x · W₁. -/
theorem first_propagation (c : Dev nD) : W5 m ρ c (Proc.devRef .tc main_v43)
    = Cert.Gcn.propagate64 (F := Ideal) (Cert.Gcn.project (F := Ideal) (m ((c.tc : Thread nD τ).loc main_arg0)) (m ((c.tc : Thread nD τ).loc main_arg2)))
        (srcs m c) (dsts m c) (weights m c) := by
  show after hostOps1 (W4 m ρ c) (Proc.devRef .tc main_v43) = _
  rw [stretch1_propagation, first_stage, across_first m ρ c main_v3 (by decide), across_first m ρ c main_v6 (by decide),
    across_first m ρ c main_v29 (by decide), opening_src, opening_dst, opening_weight]

/-- After the second region: its output array is relu(a + b₁) · W₂ of the first propagation a. -/
theorem second_stage (c : Dev nD) : W6 m ρ c (Proc.devRef .tc main_v45)
    = Cert.Gcn.hiddenLayer (F := Ideal)
        (Cert.Gcn.propagate64 (F := Ideal) (Cert.Gcn.project (F := Ideal) (m ((c.tc : Thread nD τ).loc main_arg0)) (m ((c.tc : Thread nD τ).loc main_arg2)))
          (srcs m c) (dsts m c) (weights m c))
        (shapeCast S1x64 (m ((c.tc : Thread nD τ).loc main_arg3)) shapeCasts_S64_S1x64) (m ((c.tc : Thread nD τ).loc main_arg4)) := by
  refine (W6_arr m ρ c 3).trans ((Stage1.array_eq (V5 m ρ) c).trans ?_)
  show Cert.Gcn.hiddenLayer (F := Ideal) (W5 m ρ c (Proc.devRef .tc main_v43)) (after hostOps1 (W4 m ρ c) (Proc.devRef .tc main_v44))
      (after hostOps1 (W4 m ρ c) (Proc.devRef .tc main_arg4)) = _
  rw [first_propagation, stretch1_bias, stretch1_arg4, across_first m ρ c main_arg3 (by decide), across_first m ρ c main_arg4 (by decide),
    opening_arg3, opening_arg4]

/-- A buffer neither the first region, nor the stretch after it, nor the second region writes keeps, up to the second
    region's exit, what the opening stretches left. -/
theorem across_second (c : Dev nD) (b : Ref sig .tc) (h0 : ∀ w, Pipeline.arrRef spec0 w ≠ b) (h1 : ∀ w, Pipeline.arrRef spec1 w ≠ b)
    (hs : after hostOps1 (W4 m ρ c) (Proc.devRef .tc b) = W4 m ρ c (Proc.devRef .tc b)) :
    W6 m ρ c (Proc.devRef .tc b) = opening (W0 m ρ c) (Proc.devRef .tc b) :=
  (W6_of_ne m ρ c b h1).trans (hs.trans (across_first m ρ c b h0))

/-- Before the third region: the second propagation. -/
theorem second_propagation (c : Dev nD) : W7 m ρ c (Proc.devRef .tc main_v57)
    = Cert.Gcn.propagate1 (F := Ideal)
        (Cert.Gcn.hiddenLayer (F := Ideal)
          (Cert.Gcn.propagate64 (F := Ideal) (Cert.Gcn.project (F := Ideal) (m ((c.tc : Thread nD τ).loc main_arg0)) (m ((c.tc : Thread nD τ).loc main_arg2)))
            (srcs m c) (dsts m c) (weights m c))
          (shapeCast S1x64 (m ((c.tc : Thread nD τ).loc main_arg3)) shapeCasts_S64_S1x64) (m ((c.tc : Thread nD τ).loc main_arg4)))
        (srcs m c) (dsts m c) (weights m c) := by
  show after hostOps2 (W6 m ρ c) (Proc.devRef .tc main_v57) = _
  rw [stretch2_propagation, second_stage,
    across_second m ρ c main_v3 (by decide) (by decide) (stretch1_src _), across_second m ρ c main_v6 (by decide) (by decide) (stretch1_dst _),
    across_second m ρ c main_v29 (by decide) (by decide) (stretch1_weight _), opening_src, opening_dst, opening_weight]

/-- THE RESULT BUFFER at the end of the run: the network of the launch memory's arguments, b₁ and b₂ laid out by reshapes. -/
theorem result_network (c : Dev nD) : W8 m ρ c (Proc.devRef .tc main_v59)
    = Cert.Gcn.network (F := Ideal) (m ((c.tc : Thread nD τ).loc main_arg0)) (m ((c.tc : Thread nD τ).loc main_arg1)) (m ((c.tc : Thread nD τ).loc main_arg2))
        (shapeCast S1x64 (m ((c.tc : Thread nD τ).loc main_arg3)) shapeCasts_S64_S1x64) (m ((c.tc : Thread nD τ).loc main_arg4))
        (shapeCast S1x1 (m ((c.tc : Thread nD τ).loc main_arg5)) shapeCasts_S1_S1x1) := by
  refine (W8_arr m ρ c 2).trans ((Stage2.array_eq (V7 m ρ) c).trans ?_)
  show Cert.Gcn.squash (F := Ideal) (W7 m ρ c (Proc.devRef .tc main_v57)) (after hostOps2 (W6 m ρ c) (Proc.devRef .tc main_v58)) = _
  rw [second_propagation, stretch2_bias, across_second m ρ c main_arg5 (by decide) (by decide) (stretch1_arg5 _), opening_arg5]
  rfl

/-- The same with the biases laid out as the reference lays them out: `Gcn.forward` of the six arguments. -/
theorem result_forward (c : Dev nD) : W8 m ρ c (Proc.devRef .tc main_v59)
    = Cert.Gcn.forward (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [result_network]
  unfold Cert.Gcn.forward
  rw [RowLayout.rowLayout (n := 64) _ _ Cert.ReferenceIdeal.Gen.bcast_S64_S1x64_1, RowLayout.rowLayout (n := 1) _ _ Cert.ReferenceIdeal.Gen.bcast_S1_S1x1_1]

end Cert.KernelIdeal.RunV

end
-- ==== Proof.ReferenceValue.lean ====
/-
  What the reference's run leaves in its result buffer: the network of `GcnSpec` applied to the six arguments. The reference
  is the specification's text operation by operation (it computes the degrees and the edge weights twice, once per layer; both
  copies are the same function of the edge list), so the fold of its 123 operations over the launch contents, read at the
  result buffer, unfolds to `Gcn.forward`.
-/
import proofs.«130790_j9929964388353_1_alg».proof.Proof.ReferenceRun
import proofs.«130790_j9929964388353_1_alg».proof.Proof.GcnSpec

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 40000000 in
/-- The result buffer after the reference's operations, from any contents `W` of the buffers. -/
theorem result_eq (W : Valuation τ sig (Elt F)) :
    after (ops (F := F)) W (Proc.devRef .tc main_v92)
      = Cert.Gcn.forward (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  after_results_simp
  rfl

/-- No operation of the reference writes an argument buffer: each keeps its contents through the fold. -/
theorem kept_arg0 (W : Valuation τ sig (Elt F)) : after (ops (F := F)) W (Proc.devRef .tc main_arg0) = W (Proc.devRef .tc main_arg0) := by after_results_simp
theorem kept_arg1 (W : Valuation τ sig (Elt F)) : after (ops (F := F)) W (Proc.devRef .tc main_arg1) = W (Proc.devRef .tc main_arg1) := by after_results_simp
theorem kept_arg2 (W : Valuation τ sig (Elt F)) : after (ops (F := F)) W (Proc.devRef .tc main_arg2) = W (Proc.devRef .tc main_arg2) := by after_results_simp
theorem kept_arg3 (W : Valuation τ sig (Elt F)) : after (ops (F := F)) W (Proc.devRef .tc main_arg3) = W (Proc.devRef .tc main_arg3) := by after_results_simp
theorem kept_arg4 (W : Valuation τ sig (Elt F)) : after (ops (F := F)) W (Proc.devRef .tc main_arg4) = W (Proc.devRef .tc main_arg4) := by after_results_simp
theorem kept_arg5 (W : Valuation τ sig (Elt F)) : after (ops (F := F)) W (Proc.devRef .tc main_arg5) = W (Proc.devRef .tc main_arg5) := by after_results_simp

/-- THE REFERENCE'S RUN, read: every weakly fair execution terminates with the result buffer at the network of the six
    arguments' launch contents, and the arguments unchanged. -/
theorem run_forward (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
        = Cert.Gcn.forward (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (result_eq _),
      (h c main_arg0).trans (kept_arg0 _), (h c main_arg1).trans (kept_arg1 _), (h c main_arg2).trans (kept_arg2 _),
      (h c main_arg3).trans (kept_arg3 _), (h c main_arg4).trans (kept_arg4 _), (h c main_arg5).trans (kept_arg5 _)⟩)
    (run m ρ)

end Cert.ReferenceIdeal.RunP

end
-- ==== Proof.lean ====
/-
  A two-layer graph convolution, out = σ( P( relu( P(x · W₁) + b₁ ) · W₂ ) + b₂ ), computed two ways.

  The kernel runs its three dense stages — x · W₁; relu(a + b₁) · W₂; σ(a + b₂) — as tiled kernels over ten blocks of 10000
  rows each, with the matrix products' operands rounded to bf16, and leaves the propagation P (gather the source rows, scale
  by the symmetric degree weights, sum over incoming edges) to host operations between them. The reference is the same
  sequence in plain host operations. At the ideal values (floats are extended reals, a change of float format is the
  identity) the two results are equal entry by entry, and for a plain reason: stage by stage they are the SAME expression of
  the same entries. A product of a block of rows is that block of the product; bias, maximum with 0 and the logistic
  function act row by row; the kernel's logistic operation denotes 1 / (1 + e^(−t)), the expansion the reference is printed
  with; and the host operations of the propagation are the same text in both programs. No sum is regrouped and no factor
  moved, so no entry needs to be finite: the precondition is never opened.

  Proof/GcnSpec.lean states the network once as whole-array functions. Proof/ReferenceRun.lean and Proof/ReferenceValue.lean
  read the reference's run as that network of its arguments. Proof/TileForms.lean reads each kernel body at an entry,
  Proof/StageProject.lean, StageHidden.lean and StageSquash.lean turn the ten written tiles of each region into the whole
  output array, Proof/KernelRun.lean is the kernel's run with every buffer's final contents kept, and Proof/KernelValue.lean
  reads the result buffer back through the eight segments of @main to the same network of the arguments.

  The three frame claims: the two kernels' by their frame certificates; the reference's from its run with the result dropped.
  The idealization rewrote no operation, so `preserves` has nothing to state.
-/
import proofs.«130790_j9929964388353_1_alg».proof.Defs
import proofs.«130790_j9929964388353_1_alg».proof.Proof.Gen.Kernel
import proofs.«130790_j9929964388353_1_alg».proof.Proof.Gen.Kernel.Frame
import proofs.«130790_j9929964388353_1_alg».proof.Proof.Gen.KernelIdeal
import proofs.«130790_j9929964388353_1_alg».proof.Proof.Gen.KernelIdeal.Frame
import proofs.«130790_j9929964388353_1_alg».proof.Proof.Gen.ReferenceIdeal
import proofs.«130790_j9929964388353_1_alg».proof.Proof.Gen.Pre_finite_inputs
import proofs.«130790_j9929964388353_1_alg».proof.Proof.KernelValue
import proofs.«130790_j9929964388353_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RunP.run_forward (F := Ideal) m ρ)

/-- The ideal pass rewrote nothing: the idealized kernel is the kernel's own text read at the ideal values. -/
theorem preserves : Cert.preserves_Kernel_KernelIdeal := trivial

/-- Both runs end with the result buffer at the network of the arguments (`Gcn.forward`), and the arguments agree. -/
theorem algebraic : Cert.algebraic_KernelIdeal_ReferenceIdeal := by
  intro m ρ m' ρ' _ hagree
  refine ⟨fun c => Cert.Gcn.forward (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.RunV.result_forward m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.RunP.run_forward (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
